-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x37x37x512 : Shape := ⟨4, ![64, 37, 37, 512]⟩
abbrev S_ : Shape := ⟨0, ![]⟩

class Facts : Prop where
  bcast_S_S64x37x37x512 : S_.BroadcastsInDim S64x37x37x512 (![] : Fin 0 → Fin S64x37x37x512.rank)
  reducesTo_S64x37x37x512_S_d0_1_2_3 : S64x37x37x512.ReducesTo [0, 1, 2, 3] S_
  h_S_ : 0 < S_.numel

variable [Facts]

def fn {F : FTy → Type} [FloatOps F] (main_arg0 : FVec F S64x37x37x512 .f32) : IVec S_ 1 :=
  let main_v0 : FVec F S64x37x37x512 .f32 := Host.absf main_arg0
  let main_cst : FVec F S_ .f32 := constant S_ .f32 0x7F800000#32
  let main_v1 : FVec F S64x37x37x512 .f32 := broadcastInDim S64x37x37x512 ![] bcast_S_S64x37x37x512 main_cst
  let main_v2 : IVec S64x37x37x512 1 := cmpf .olt main_v0 main_v1
  let main_c : IVec S_ 1 := constantI S_ 1 1#1
  let main_v3 : IVec S_ 1 := (fun x v => Host.reduce IntOp.andi x v reducesTo_S64x37x37x512_S_d0_1_2_3 h_S_) main_v2 main_c
  main_v3
-- ==== Kernel.lean ====
abbrev S64x37x37x512 : Shape := ⟨4, ![64, 37, 37, 512]⟩
abbrev S64x14x512 : Shape := ⟨3, ![64, 14, 512]⟩
abbrev S4x37x37x512 : Shape := ⟨4, ![4, 37, 37, 512]⟩
abbrev S4x14x512 : Shape := ⟨3, ![4, 14, 512]⟩
abbrev S4x18x37x512 : Shape := ⟨4, ![4, 18, 37, 512]⟩
abbrev S4x37x512 : Shape := ⟨3, ![4, 37, 512]⟩
abbrev S4x24x37x512 : Shape := ⟨4, ![4, 24, 37, 512]⟩
abbrev S4x512 : Shape := ⟨2, ![4, 512]⟩
abbrev S4x24x512 : Shape := ⟨3, ![4, 24, 512]⟩
abbrev S4x18x512 : Shape := ⟨3, ![4, 18, 512]⟩
abbrev S4x1x512 : Shape := ⟨3, ![4, 1, 512]⟩

abbrev nBuf : Space → Nat
  | .hbm => 2
  | .vmem => 4
  | .smem => 0
  | _ => 0

abbrev bufTy : (tb : Table) → Fin (tcTables nBuf tb) → BufTy
  | .hbm, ⟨0, _⟩ => ⟨S64x37x37x512, .f32⟩
  | .hbm, ⟨1, _⟩ => ⟨S64x14x512, .f32⟩
  | .local _ .vmem, ⟨0, _⟩ => ⟨S4x37x37x512, .f32⟩
  | .local _ .vmem, ⟨1, _⟩ => ⟨S4x37x37x512, .f32⟩
  | .local _ .vmem, ⟨2, _⟩ => ⟨S4x14x512, .f32⟩
  | .local _ .vmem, ⟨3, _⟩ => ⟨S4x14x512, .f32⟩
  | _, _ => ⟨S64x37x37x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x37x37x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x14x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S4x37x37x512_S4x18x37x512_0_0_0_0 : ∀ a, (![0, 0, 0, 0] : Fin 4 → Nat) a + S4x18x37x512.size a ≤ S4x37x37x512.size a
  h_S4x18x37x512 : 0 < S4x18x37x512.numel
  reduces_S4x18x37x512_S4x37x512 : S4x18x37x512.Reduces [1] S4x37x512
  inb_S4x37x37x512_S4x24x37x512_0_0_0_0 : ∀ a, (![0, 0, 0, 0] : Fin 4 → Nat) a + S4x24x37x512.size a ≤ S4x37x37x512.size a
  h_S4x24x37x512 : 0 < S4x24x37x512.numel
  reduces_S4x24x37x512_S4x37x512 : S4x24x37x512.Reduces [1] S4x37x512
  inb_S4x37x37x512_S4x37x37x512_0_0_0_0 : ∀ a, (![0, 0, 0, 0] : Fin 4 → Nat) a + S4x37x37x512.size a ≤ S4x37x37x512.size a
  h_S4x37x37x512 : 0 < S4x37x37x512.numel
  reduces_S4x37x37x512_S4x37x512 : S4x37x37x512.Reduces [1] S4x37x512
  inb_S4x37x37x512_S4x18x37x512_0_9_0_0 : ∀ a, (![0, 9, 0, 0] : Fin 4 → Nat) a + S4x18x37x512.size a ≤ S4x37x37x512.size a
  inb_S4x37x37x512_S4x24x37x512_0_13_0_0 : ∀ a, (![0, 13, 0, 0] : Fin 4 → Nat) a + S4x24x37x512.size a ≤ S4x37x37x512.size a
  inb_S4x37x37x512_S4x18x37x512_0_19_0_0 : ∀ a, (![0, 19, 0, 0] : Fin 4 → Nat) a + S4x18x37x512.size a ≤ S4x37x37x512.size a
  reduces_S4x37x512_S4x512 : S4x37x512.Reduces [1] S4x512
  slices_S4x37x512_o0_0_0_S4x24x512 : S4x37x512.Slices ![0, 0, 0] S4x24x512
  reduces_S4x24x512_S4x512 : S4x24x512.Reduces [1] S4x512
  slices_S4x37x512_o0_13_0_S4x24x512 : S4x37x512.Slices ![0, 13, 0] S4x24x512
  slices_S4x37x512_o0_0_0_S4x18x512 : S4x37x512.Slices ![0, 0, 0] S4x18x512
  reduces_S4x18x512_S4x512 : S4x18x512.Reduces [1] S4x512
  slices_S4x37x512_o0_9_0_S4x18x512 : S4x37x512.Slices ![0, 9, 0] S4x18x512
  slices_S4x37x512_o0_19_0_S4x18x512 : S4x37x512.Slices ![0, 19, 0] S4x18x512
  shapeCasts_S4x512_S4x1x512 : S4x512.ShapeCasts S4x1x512
  concatenates_S4x1x512_S4x1x512_S4x1x512_S4x1x512_S4x1x512_S4x1x512_S4x1x512_S4x1x512_S4x1x512_S4x1x512_S4x1x512_S4x1x512_S4x1x512_S4x1x512_S4x14x512_d1 : Shape.Concatenates [S4x1x512, S4x1x512, S4x1x512, S4x1x512, S4x1x512, S4x1x512, S4x1x512, S4x1x512, S4x1x512, S4x1x512, S4x1x512, S4x1x512, S4x1x512, S4x1x512] S4x14x512 1
  inb_S4x14x512_S4x14x512_0_0_0 : ∀ a, (![0, 0, 0] : Fin 3 → Nat) a + S4x14x512.size a ≤ S4x14x512.size a
  h_S4x14x512 : 0 < S4x14x512.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x37x37x512.size a ≤ S64x37x37x512.size a
  hwx0_0 : ∀ i : grid0.Coords, EltTy.bits .f32 = 32 ∨ (Rect.block (s := S64x37x37x512) S4x37x37x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x14x512.size a ≤ S64x14x512.size a
  hwx0_1 : ∀ i : grid0.Coords, EltTy.bits .f32 = 32 ∨ (Rect.block (s := S64x14x512) S4x14x512.size (cc0_transform_1 i) (hinb0_1 i)).WholeWords (EltTy.packing .f32)

variable [Facts₀]

abbrev win0_0 : Pipeline.Window sig grid0 :=
  Pipeline.Window.ofSpec (Memref.whole main_arg0) S4x37x37x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x14x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x37x37x512 : Shape := ⟨4, ![64, 37, 37, 512]⟩
abbrev S_ : Shape := ⟨0, ![]⟩
abbrev S64x512 : Shape := ⟨2, ![64, 512]⟩
abbrev S64x24x24x512 : Shape := ⟨4, ![64, 24, 24, 512]⟩
abbrev S64x18x18x512 : Shape := ⟨4, ![64, 18, 18, 512]⟩
abbrev S64x1x512 : Shape := ⟨3, ![64, 1, 512]⟩
abbrev S64x14x512 : Shape := ⟨3, ![64, 14, 512]⟩

abbrev nBuf : Space → Nat
  | .hbm => 57
  | .vmem => 0
  | .smem => 0
  | _ => 0

abbrev bufTy : (tb : Table) → Fin (tcTables nBuf tb) → BufTy
  | .hbm, ⟨0, _⟩ => ⟨S64x37x37x512, .f32⟩
  | .hbm, ⟨1, _⟩ => ⟨S_, .f32⟩
  | .hbm, ⟨2, _⟩ => ⟨S64x512, .f32⟩
  | .hbm, ⟨3, _⟩ => ⟨S64x24x24x512, .f32⟩
  | .hbm, ⟨4, _⟩ => ⟨S_, .f32⟩
  | .hbm, ⟨5, _⟩ => ⟨S64x512, .f32⟩
  | .hbm, ⟨6, _⟩ => ⟨S64x24x24x512, .f32⟩
  | .hbm, ⟨7, _⟩ => ⟨S_, .f32⟩
  | .hbm, ⟨8, _⟩ => ⟨S64x512, .f32⟩
  | .hbm, ⟨9, _⟩ => ⟨S64x24x24x512, .f32⟩
  | .hbm, ⟨10, _⟩ => ⟨S_, .f32⟩
  | .hbm, ⟨11, _⟩ => ⟨S64x512, .f32⟩
  | .hbm, ⟨12, _⟩ => ⟨S64x24x24x512, .f32⟩
  | .hbm, ⟨13, _⟩ => ⟨S_, .f32⟩
  | .hbm, ⟨14, _⟩ => ⟨S64x512, .f32⟩
  | .hbm, ⟨15, _⟩ => ⟨S64x18x18x512, .f32⟩
  | .hbm, ⟨16, _⟩ => ⟨S_, .f32⟩
  | .hbm, ⟨17, _⟩ => ⟨S64x512, .f32⟩
  | .hbm, ⟨18, _⟩ => ⟨S64x18x18x512, .f32⟩
  | .hbm, ⟨19, _⟩ => ⟨S_, .f32⟩
  | .hbm, ⟨20, _⟩ => ⟨S64x512, .f32⟩
  | .hbm, ⟨21, _⟩ => ⟨S64x18x18x512, .f32⟩
  | .hbm, ⟨22, _⟩ => ⟨S_, .f32⟩
  | .hbm, ⟨23, _⟩ => ⟨S64x512, .f32⟩
  | .hbm, ⟨24, _⟩ => ⟨S64x18x18x512, .f32⟩
  | .hbm, ⟨25, _⟩ => ⟨S_, .f32⟩
  | .hbm, ⟨26, _⟩ => ⟨S64x512, .f32⟩
  | .hbm, ⟨27, _⟩ => ⟨S64x18x18x512, .f32⟩
  | .hbm, ⟨28, _⟩ => ⟨S_, .f32⟩
  | .hbm, ⟨29, _⟩ => ⟨S64x512, .f32⟩
  | .hbm, ⟨30, _⟩ => ⟨S64x18x18x512, .f32⟩
  | .hbm, ⟨31, _⟩ => ⟨S_, .f32⟩
  | .hbm, ⟨32, _⟩ => ⟨S64x512, .f32⟩
  | .hbm, ⟨33, _⟩ => ⟨S64x18x18x512, .f32⟩
  | .hbm, ⟨34, _⟩ => ⟨S_, .f32⟩
  | .hbm, ⟨35, _⟩ => ⟨S64x512, .f32⟩
  | .hbm, ⟨36, _⟩ => ⟨S64x18x18x512, .f32⟩
  | .hbm, ⟨37, _⟩ => ⟨S_, .f32⟩
  | .hbm, ⟨38, _⟩ => ⟨S64x512, .f32⟩
  | .hbm, ⟨39, _⟩ => ⟨S64x18x18x512, .f32⟩
  | .hbm, ⟨40, _⟩ => ⟨S_, .f32⟩
  | .hbm, ⟨41, _⟩ => ⟨S64x512, .f32⟩
  | .hbm, ⟨42, _⟩ => ⟨S64x1x512, .f32⟩
  | .hbm, ⟨43, _⟩ => ⟨S64x1x512, .f32⟩
  | .hbm, ⟨44, _⟩ => ⟨S64x1x512, .f32⟩
  | .hbm, ⟨45, _⟩ => ⟨S64x1x512, .f32⟩
  | .hbm, ⟨46, _⟩ => ⟨S64x1x512, .f32⟩
  | .hbm, ⟨47, _⟩ => ⟨S64x1x512, .f32⟩
  | .hbm, ⟨48, _⟩ => ⟨S64x1x512, .f32⟩
  | .hbm, ⟨49, _⟩ => ⟨S64x1x512, .f32⟩
  | .hbm, ⟨50, _⟩ => ⟨S64x1x512, .f32⟩
  | .hbm, ⟨51, _⟩ => ⟨S64x1x512, .f32⟩
  | .hbm, ⟨52, _⟩ => ⟨S64x1x512, .f32⟩
  | .hbm, ⟨53, _⟩ => ⟨S64x1x512, .f32⟩
  | .hbm, ⟨54, _⟩ => ⟨S64x1x512, .f32⟩
  | .hbm, ⟨55, _⟩ => ⟨S64x1x512, .f32⟩
  | .hbm, ⟨56, _⟩ => ⟨S64x14x512, .f32⟩
  | _, _ => ⟨S64x37x37x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_cst_3 : Ref sig .tc := ⟨.hbm, 13, rfl⟩
abbrev main_v8 : Ref sig .tc := ⟨.hbm, 14, rfl⟩
abbrev main_v9 : Ref sig .tc := ⟨.hbm, 15, rfl⟩
abbrev main_cst_4 : Ref sig .tc := ⟨.hbm, 16, rfl⟩
abbrev main_v10 : Ref sig .tc := ⟨.hbm, 17, rfl⟩
abbrev main_v11 : Ref sig .tc := ⟨.hbm, 18, rfl⟩
abbrev main_cst_5 : Ref sig .tc := ⟨.hbm, 19, rfl⟩
abbrev main_v12 : Ref sig .tc := ⟨.hbm, 20, rfl⟩
abbrev main_v13 : Ref sig .tc := ⟨.hbm, 21, rfl⟩
abbrev main_cst_6 : Ref sig .tc := ⟨.hbm, 22, rfl⟩
abbrev main_v14 : Ref sig .tc := ⟨.hbm, 23, rfl⟩
abbrev main_v15 : Ref sig .tc := ⟨.hbm, 24, rfl⟩
abbrev main_cst_7 : Ref sig .tc := ⟨.hbm, 25, rfl⟩
abbrev main_v16 : Ref sig .tc := ⟨.hbm, 26, rfl⟩
abbrev main_v17 : Ref sig .tc := ⟨.hbm, 27, rfl⟩
abbrev main_cst_8 : Ref sig .tc := ⟨.hbm, 28, rfl⟩
abbrev main_v18 : Ref sig .tc := ⟨.hbm, 29, rfl⟩
abbrev main_v19 : Ref sig .tc := ⟨.hbm, 30, rfl⟩
abbrev main_cst_9 : Ref sig .tc := ⟨.hbm, 31, rfl⟩
abbrev main_v20 : Ref sig .tc := ⟨.hbm, 32, rfl⟩
abbrev main_v21 : Ref sig .tc := ⟨.hbm, 33, rfl⟩
abbrev main_cst_10 : Ref sig .tc := ⟨.hbm, 34, rfl⟩
abbrev main_v22 : Ref sig .tc := ⟨.hbm, 35, rfl⟩
abbrev main_v23 : Ref sig .tc := ⟨.hbm, 36, rfl⟩
abbrev main_cst_11 : Ref sig .tc := ⟨.hbm, 37, rfl⟩
abbrev main_v24 : Ref sig .tc := ⟨.hbm, 38, rfl⟩
abbrev main_v25 : Ref sig .tc := ⟨.hbm, 39, rfl⟩
abbrev main_cst_12 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]

class Facts₀ : Prop where
  reducesTo_S64x37x37x512_S64x512_d1_2 : S64x37x37x512.ReducesTo [1, 2] S64x512
  h_S_ : 0 < S_.numel
  slices_S64x37x37x512_S64x24x24x512_0_0_0_0 : S64x37x37x512.Slices ![0, 0, 0, 0] S64x24x24x512
  reducesTo_S64x24x24x512_S64x512_d1_2 : S64x24x24x512.ReducesTo [1, 2] S64x512
  slices_S64x37x37x512_S64x24x24x512_0_0_13_0 : S64x37x37x512.Slices ![0, 0, 13, 0] S64x24x24x512
  slices_S64x37x37x512_S64x24x24x512_0_13_0_0 : S64x37x37x512.Slices ![0, 13, 0, 0] S64x24x24x512
  slices_S64x37x37x512_S64x24x24x512_0_13_13_0 : S64x37x37x512.Slices ![0, 13, 13, 0] S64x24x24x512
  slices_S64x37x37x512_S64x18x18x512_0_0_0_0 : S64x37x37x512.Slices ![0, 0, 0, 0] S64x18x18x512
  reducesTo_S64x18x18x512_S64x512_d1_2 : S64x18x18x512.ReducesTo [1, 2] S64x512
  slices_S64x37x37x512_S64x18x18x512_0_0_9_0 : S64x37x37x512.Slices ![0, 0, 9, 0] S64x18x18x512
  slices_S64x37x37x512_S64x18x18x512_0_0_19_0 : S64x37x37x512.Slices ![0, 0, 19, 0] S64x18x18x512
  slices_S64x37x37x512_S64x18x18x512_0_9_0_0 : S64x37x37x512.Slices ![0, 9, 0, 0] S64x18x18x512
  slices_S64x37x37x512_S64x18x18x512_0_9_9_0 : S64x37x37x512.Slices ![0, 9, 9, 0] S64x18x18x512
  slices_S64x37x37x512_S64x18x18x512_0_9_19_0 : S64x37x37x512.Slices ![0, 9, 19, 0] S64x18x18x512
  slices_S64x37x37x512_S64x18x18x512_0_19_0_0 : S64x37x37x512.Slices ![0, 19, 0, 0] S64x18x18x512
  slices_S64x37x37x512_S64x18x18x512_0_19_9_0 : S64x37x37x512.Slices ![0, 19, 9, 0] S64x18x18x512
  slices_S64x37x37x512_S64x18x18x512_0_19_19_0 : S64x37x37x512.Slices ![0, 19, 19, 0] S64x18x18x512
  bcast_S64x512_S64x1x512_0_2 : S64x512.BroadcastsInDim S64x1x512 (![0, 2] : Fin 2 → Fin S64x1x512.rank)
  concatenates_S64x1x512_S64x1x512_S64x1x512_S64x1x512_S64x1x512_S64x1x512_S64x1x512_S64x1x512_S64x1x512_S64x1x512_S64x1x512_S64x1x512_S64x1x512_S64x1x512_S64x14x512_d1 : Shape.Concatenates [S64x1x512, S64x1x512, S64x1x512, S64x1x512, S64x1x512, S64x1x512, S64x1x512, S64x1x512, S64x1x512, S64x1x512, S64x1x512, S64x1x512, S64x1x512, S64x1x512] S64x14x512 1

variable [Facts₀]

class Facts : Prop extends Facts₀ where

variable [Facts]
-- ==== Proof.CropMax.lean ====
/-
  Regional max pooling, as one function of the input array.

  The input is an array `x[b, h, w, c]` over a 37 × 37 grid of positions (h, w); the output has, for each batch entry `b`,
  each of 14 square crops `r` of the grid and each channel `c`, the largest entry of `x[b, ·, ·, c]` over the crop:
  rows `rowOff r ≤ h < rowOff r + side r`, columns `colOff r ≤ w < colOff r + side r`. The crops are the whole grid, four
  24 × 24 squares at offsets {0, 13}², and nine 18 × 18 squares at offsets {0, 9, 19}².

  On the extended reals the largest entry is a supremum of a finite family, and a supremum is characterised by its upper
  bounds: `v` is the crop's maximum iff for every `z`, `v ≤ z` exactly when every entry of the crop is `≤ z`
  (`eq_cropMaxAt_of_le_iff`). Both programs are read against this characterisation: one takes the maximum over rows and
  columns at once, the other first over the rows of a band and then over a range of columns of the result; either way
  `· ≤ z` unfolds to "every entry of the crop is `≤ z`", so neither order, grouping nor finiteness of the entries matters.
-/
import Idealize.ShloMosaic.PureOps.Ideal.Laws
import Idealize.ShloMosaic.Lib.ValueIdx

noncomputable section

namespace Cert.RegionMax

open Idealize.ShloMosaic Idealize.ShloMosaic.ValueIdx

/-! ## The crops -/

/-- First row of crop `r`. -/
def rowOff : Fin 14 → ℕ := ![0, 0, 0, 13, 13, 0, 0, 0, 9, 9, 9, 19, 19, 19]
/-- First column of crop `r`. -/
def colOff : Fin 14 → ℕ := ![0, 0, 13, 0, 13, 0, 9, 19, 0, 9, 19, 0, 9, 19]
/-- Side of crop `r` (every crop is a square). -/
def side : Fin 14 → ℕ := ![37, 24, 24, 24, 24, 18, 18, 18, 18, 18, 18, 18, 18, 18]

/-- Position (h, w) of the grid lies in the square of side `n` whose first row is `oy` and first column `ox`. -/
def InCrop (oy ox n : ℕ) (h w : Fin 37) : Prop := oy ≤ h.val ∧ h.val < oy + n ∧ ox ≤ w.val ∧ w.val < ox + n

instance (oy ox n : ℕ) (h w : Fin 37) : Decidable (InCrop oy ox n h w) := by unfold InCrop; infer_instance

/-- The largest entry of `x[b, ·, ·, c]` over crop `r`, as a supremum on the extended reals (the supremum of no entries
    would be `-∞`; no crop is empty). -/
def cropMaxAt {nb : ℕ} (x : (⟨4, ![nb, 37, 37, 512]⟩ : Shape).Idx → EReal) (b : Fin nb) (r : Fin 14) (c : Fin 512) : EReal :=
  (Finset.univ.filter fun p : Fin 37 × Fin 37 => InCrop (rowOff r) (colOff r) (side r) p.1 p.2).sup
    fun p => x (ix4 b p.1 p.2 c)

/-- The pooled array: entry (b, r, c) is the largest entry of `x[b, ·, ·, c]` over crop `r`. -/
def cropMax {nb : ℕ} (x : (⟨4, ![nb, 37, 37, 512]⟩ : Shape).Idx → EReal) : (⟨3, ![nb, 14, 512]⟩ : Shape).Idx → EReal :=
  fun i => cropMaxAt x (i 0) (i 1) (i 2)

theorem cropMax_ix3 {nb : ℕ} (x : (⟨4, ![nb, 37, 37, 512]⟩ : Shape).Idx → EReal) (b : Fin nb) (r : Fin 14) (c : Fin 512) :
    cropMax x (ix3 b r c) = cropMaxAt x b r c := rfl

/-- The upper bounds of a crop's maximum are the common upper bounds of its entries. -/
theorem cropMaxAt_le_iff {nb : ℕ} (x : (⟨4, ![nb, 37, 37, 512]⟩ : Shape).Idx → EReal) (b : Fin nb) (r : Fin 14) (c : Fin 512)
    (z : EReal) :
    cropMaxAt x b r c ≤ z ↔ ∀ h w : Fin 37, InCrop (rowOff r) (colOff r) (side r) h w → x (ix4 b h w c) ≤ z := by
  unfold cropMaxAt
  rw [Finset.sup_le_iff]
  simp only [Finset.mem_filter, Finset.mem_univ, true_and, Prod.forall]

/-- A value with exactly those upper bounds is the crop's maximum. -/
theorem eq_cropMaxAt_of_le_iff {nb : ℕ} (x : (⟨4, ![nb, 37, 37, 512]⟩ : Shape).Idx → EReal) (b : Fin nb) (r : Fin 14)
    (c : Fin 512) (v : EReal)
    (H : ∀ z : EReal, v ≤ z ↔ ∀ h w : Fin 37, InCrop (rowOff r) (colOff r) (side r) h w → x (ix4 b h w c) ≤ z) :
    v = cropMaxAt x b r c :=
  eq_of_forall_ge_iff fun z => (H z).trans (cropMaxAt_le_iff x b r c z).symm

/-- A statement about every position of a square crop, with the positions named by their offsets inside the crop, is
    the statement about every grid position that lies in the crop. -/
theorem forall_crop_iff {oy ox n : ℕ} (hy : oy + n ≤ 37) (hx : ox + n ≤ 37) (p : Fin 37 → Fin 37 → Prop) :
    (∀ (h w : Fin n), p ⟨oy + h.val, by have := h.isLt; omega⟩ ⟨ox + w.val, by have := w.isLt; omega⟩)
      ↔ ∀ h w : Fin 37, InCrop oy ox n h w → p h w := by
  constructor
  · intro H h w hc
    obtain ⟨h1, h2, w1, w2⟩ := hc
    have key := H ⟨h.val - oy, by omega⟩ ⟨w.val - ox, by omega⟩
    have eh : (⟨oy + (h.val - oy), by omega⟩ : Fin 37) = h := Fin.ext (show oy + (h.val - oy) = h.val by omega)
    have ew : (⟨ox + (w.val - ox), by omega⟩ : Fin 37) = w := Fin.ext (show ox + (w.val - ox) = w.val by omega)
    rw [← eh, ← ew]
    exact key
  · intro H h w
    exact H _ _ ⟨Nat.le_add_right _ _, by have := h.isLt; show oy + h.val < oy + n; omega, Nat.le_add_right _ _,
      by have := w.isLt; show ox + w.val < ox + n; omega⟩

/-! ## The value a maximum starts from -/

/-- The f32 word of `-∞`, the value a maximum is started from, is the least extended real. -/
theorem ofBits_neg_inf : Ideal.ofBits .f32 0xFF800000#32 = (⊥ : EReal) := by
  simp [Ideal.ofBits, Ideal.ieee]

end Cert.RegionMax

end
-- ==== Proof.MaxOps.lean ====
/-
  The operations of the two programs that take a maximum or move data, read at one index on the extended reals.

  A reduction with `max` started from `-∞` is bounded by `z` iff every entry it ranges over is (`fold_le_iff`): this is
  said once for a reduction over one axis of a rank-4 or rank-3 array (the first program's reductions over the rows of a
  band and over the columns of a strip) and once for a reduction over the two middle axes of a rank-4 array at once
  (the second program's reduction over rows and columns of a crop). A slice, a load through a rectangle, a change of
  shape that inserts a unit axis, and a broadcast along a unit axis only rename the index.
-/
import proofs.«172668_j41721312314087_2_alg».proof.Proof.CropMax
import Idealize.ShloMosaic.Lib.Pipeline.Value

noncomputable section

namespace Cert.RegionMax

open Idealize.ShloMosaic Idealize.ShloMosaic.ValueIdx

/-- A fold of an operation that is `max`, from a value that is `-∞`, is bounded by `z` iff every member is. -/
theorem fold_le_iff {ι : Type} (op : EReal → EReal → EReal) [Std.Commutative op] [Std.Associative op]
    (hop : ∀ x y, op x y = max x y) (init : EReal) (hinit : init = ⊥) (s : Finset ι) (g : ι → EReal) (z : EReal) :
    s.fold op init g ≤ z ↔ ∀ k ∈ s, g k ≤ z := by
  subst hinit
  induction s using Finset.cons_induction with
  | empty => simp
  | cons a s ha ih => rw [Finset.fold_cons, hop, max_le_iff, ih, Finset.forall_mem_cons]

/-! ## One axis: the maximum over the rows of a band, and over the columns of a strip -/

/-- Inserting row `k` into the index (b, w, c) of a band's row maximum gives the band's index (b, k, w, c). -/
theorem lift_rows {N : ℕ} (h : Shape.Reduces (⟨4, ![4, N, 37, 512]⟩ : Shape) [(1 : Fin 4)] ⟨3, ![4, 37, 512]⟩)
    (b : Fin 4) (w : Fin 37) (c : Fin 512) (k : Fin N) : h.lift (ix3 b w c) k = ix4 b k w c := by
  funext d; apply Fin.ext
  match d with
  | ⟨0, _⟩ => rfl
  | ⟨1, _⟩ => rfl
  | ⟨2, _⟩ => rfl
  | ⟨3, _⟩ => rfl

/-- The maximum over the `N` rows of a band, at (b, w, c), is bounded by `z` iff every row's entry there is. -/
theorem rowsMax_le_iff {N : ℕ} (P : FVec Ideal ⟨4, ![4, N, 37, 512]⟩ .f32)
    (h : Shape.Reduces (⟨4, ![4, N, 37, 512]⟩ : Shape) [(1 : Fin 4)] ⟨3, ![4, 37, 512]⟩) (hφ : FKind.Formats .f32)
    (hacc : (0xFF800000#32 : BitVec 32) = FKind.maximumf.neutral .f32 hφ) (b : Fin 4) (w : Fin 37) (c : Fin 512) (z : EReal) :
    multiReduction .maximumf [(1 : Fin 4)] ⟨3, ![4, 37, 512]⟩ P 0xFF800000#32 h hφ hacc (ix3 b w c) ≤ z
      ↔ ∀ k : Fin N, P (ix4 b k w c) ≤ z := by
  rw [Ideal.multiReduction_maximumf_single P 0xFF800000#32 h hφ hacc (ix3 b w c)]
  refine (fold_le_iff max (fun _ _ => rfl) _ ofBits_neg_inf _ _ z).trans ?_
  constructor
  · intro H k
    have hk : P (h.lift (ix3 b w c) k) ≤ z := H k (Finset.mem_univ _)
    rwa [lift_rows h b w c k] at hk
  · intro H k _
    show P (h.lift (ix3 b w c) k) ≤ z
    rw [lift_rows h b w c k]
    exact H k

/-- Inserting column `k` into the index (b, c) of a strip's column maximum gives the strip's index (b, k, c). -/
theorem lift_cols {n : ℕ} (h : Shape.Reduces (⟨3, ![4, n, 512]⟩ : Shape) [(1 : Fin 3)] ⟨2, ![4, 512]⟩)
    (b : Fin 4) (c : Fin 512) (k : Fin n) : h.lift (ix2 b c) k = ix3 b k c := by
  funext d; apply Fin.ext
  match d with
  | ⟨0, _⟩ => rfl
  | ⟨1, _⟩ => rfl
  | ⟨2, _⟩ => rfl

/-- The maximum over the `n` columns of a strip, at (b, c), is bounded by `z` iff every column's entry there is. -/
theorem colsMax_le_iff {n : ℕ} (S : FVec Ideal ⟨3, ![4, n, 512]⟩ .f32)
    (h : Shape.Reduces (⟨3, ![4, n, 512]⟩ : Shape) [(1 : Fin 3)] ⟨2, ![4, 512]⟩) (hφ : FKind.Formats .f32)
    (hacc : (0xFF800000#32 : BitVec 32) = FKind.maximumf.neutral .f32 hφ) (b : Fin 4) (c : Fin 512) (z : EReal) :
    multiReduction .maximumf [(1 : Fin 3)] ⟨2, ![4, 512]⟩ S 0xFF800000#32 h hφ hacc (ix2 b c) ≤ z
      ↔ ∀ k : Fin n, S (ix3 b k c) ≤ z := by
  rw [Ideal.multiReduction_maximumf_single S 0xFF800000#32 h hφ hacc (ix2 b c)]
  refine (fold_le_iff max (fun _ _ => rfl) _ ofBits_neg_inf _ _ z).trans ?_
  constructor
  · intro H k
    have hk : S (h.lift (ix2 b c) k) ≤ z := H k (Finset.mem_univ _)
    rwa [lift_cols h b c k] at hk
  · intro H k _
    show S (h.lift (ix2 b c) k) ≤ z
    rw [lift_cols h b c k]
    exact H k

/-- Columns `ox ≤ w < ox + n` of a strip of 37 columns: the slice at (b, k, c) is the strip at (b, ox + k, c). -/
theorem colSlice_apply {n : ℕ} (ox : ℕ) (hx : ox + n ≤ 37) (S : (⟨3, ![4, 37, 512]⟩ : Shape).Idx → EReal)
    (hs : Shape.Slices (⟨3, ![4, 37, 512]⟩ : Shape) ![0, ox, 0] ⟨3, ![4, n, 512]⟩) (b : Fin 4) (k : Fin n) (c : Fin 512) :
    extractStridedSlice ⟨3, ![4, n, 512]⟩ ![0, ox, 0] S hs (ix3 b k c)
      = S (ix3 b ⟨ox + k.val, by have := k.isLt; omega⟩ c) :=
  extractStridedSlice_apply ![0, ox, 0] S hs (ix3 b k c) (ix3 b ⟨ox + k.val, by have := k.isLt; omega⟩ c) fun a =>
    match a with
    | ⟨0, _⟩ => by show b.val = 0 + b.val; omega
    | ⟨1, _⟩ => by show ox + k.val = ox + k.val; rfl
    | ⟨2, _⟩ => by show c.val = 0 + c.val; omega

/-- Inserting a unit axis in the middle, [4, 512] → [4, 1, 512], keeps the entry at (b, c) at (b, 0, c). -/
theorem unitAxis_apply (v : (⟨2, ![4, 512]⟩ : Shape).Idx → EReal)
    (h : Shape.ShapeCasts (⟨2, ![4, 512]⟩ : Shape) ⟨3, ![4, 1, 512]⟩) (b : Fin 4) (c : Fin 512) :
    shapeCast ⟨3, ![4, 1, 512]⟩ v h (ix3 b (0 : Fin 1) c) = v (ix2 b c) :=
  shapeCast_apply v h (ix3 b (0 : Fin 1) c) (ix2 b c) (by
    rw [Shape.rowMajor_val_two, Shape.rowMajor_val_three]
    show b.val * 512 + c.val = (b.val * 1 + 0) * 512 + c.val
    omega)

/-! ## Two axes at once: the maximum over the rows and columns of a crop -/

/-- The maximum over both middle axes of an [B, n, n, 512] array, at (b, c), started from the `-∞` word, is bounded by `z`
    iff every entry (b, h, w, c) is. -/
theorem planeMax_le_iff {B n : ℕ} (X : (⟨4, ![B, n, n, 512]⟩ : Shape).Idx → EReal)
    (hr : Shape.ReducesTo (⟨4, ![B, n, n, 512]⟩ : Shape) [(1 : Fin 4), (2 : Fin 4)] ⟨2, ![B, 512]⟩)
    (h0 : 0 < (⟨0, ![]⟩ : Shape).numel) (b : Fin B) (c : Fin 512) (z : EReal) :
    Host.reduce (FloatOps.maximumf (F := Ideal) (φ := .f32)) X (constant (F := Ideal) ⟨0, ![]⟩ .f32 0xFF800000#32) hr h0 (ix2 b c) ≤ z
      ↔ ∀ h w : Fin n, X (ix4 b h w c) ≤ z := by
  rw [Host.reduce_eq_fold]
  refine (fold_le_iff _ (fun _ _ => rfl) _ ofBits_neg_inf _ _ z).trans ?_
  constructor
  · intro H h w
    refine H _ (Finset.mem_filter.2 ⟨Finset.mem_univ _, ?_⟩)
    funext d; apply Fin.ext
    match d with
    | ⟨0, _⟩ => rfl
    | ⟨1, _⟩ => rfl
  · intro H i hi
    have e := (Finset.mem_filter.1 hi).2
    have e0 : (i 0).val = b.val := congrArg (fun j : (⟨2, ![B, 512]⟩ : Shape).Idx => (j 0).val) e
    have e3 : (i 3).val = c.val := congrArg (fun j : (⟨2, ![B, 512]⟩ : Shape).Idx => (j 1).val) e
    have ei : i = ix4 b (i 1) (i 2) c := by
      funext d; apply Fin.ext
      match d with
      | ⟨0, _⟩ => exact e0
      | ⟨1, _⟩ => rfl
      | ⟨2, _⟩ => rfl
      | ⟨3, _⟩ => exact e3
    rw [ei]
    exact H (i 1) (i 2)

/-- Rows `oy ≤ h < oy + n` and columns `ox ≤ w < ox + n` of the grid: the slice at (b, h, w, c) is the array at
    (b, oy + h, ox + w, c). -/
theorem cropSlice_apply {B n : ℕ} (oy ox : ℕ) (hy : oy + n ≤ 37) (hx : ox + n ≤ 37)
    (x : (⟨4, ![B, 37, 37, 512]⟩ : Shape).Idx → EReal)
    (hs : Shape.Slices (⟨4, ![B, 37, 37, 512]⟩ : Shape) ![0, oy, ox, 0] ⟨4, ![B, n, n, 512]⟩)
    (b : Fin B) (h w : Fin n) (c : Fin 512) :
    extractStridedSlice ⟨4, ![B, n, n, 512]⟩ ![0, oy, ox, 0] x hs (ix4 b h w c)
      = x (ix4 b ⟨oy + h.val, by have := h.isLt; omega⟩ ⟨ox + w.val, by have := w.isLt; omega⟩ c) :=
  extractStridedSlice_apply ![0, oy, ox, 0] x hs (ix4 b h w c)
    (ix4 b ⟨oy + h.val, by have := h.isLt; omega⟩ ⟨ox + w.val, by have := w.isLt; omega⟩ c) fun a =>
    match a with
    | ⟨0, _⟩ => by show b.val = 0 + b.val; omega
    | ⟨1, _⟩ => by show oy + h.val = oy + h.val; rfl
    | ⟨2, _⟩ => by show ox + w.val = ox + w.val; rfl
    | ⟨3, _⟩ => by show c.val = 0 + c.val; omega

/-- Broadcasting [B, 512] along a new unit axis, [B, 1, 512], keeps the entry at (b, c) at (b, 0, c). -/
theorem unitBroadcast_apply {B : ℕ} (hB : B ≠ 1) (v : (⟨2, ![B, 512]⟩ : Shape).Idx → EReal)
    (hb : Shape.BroadcastsInDim (⟨2, ![B, 512]⟩ : Shape) ⟨3, ![B, 1, 512]⟩ (![0, 2] : Fin 2 → Fin 3))
    (b : Fin B) (c : Fin 512) :
    broadcastInDim ⟨3, ![B, 1, 512]⟩ (![0, 2] : Fin 2 → Fin 3) hb v (ix3 b (0 : Fin 1) c) = v (ix2 b c) :=
  broadcastInDim_apply _ hb v (ix3 b (0 : Fin 1) c) (ix2 b c) fun a =>
    match a with
    | ⟨0, _⟩ => by show b.val = if B = 1 then 0 else b.val; rw [if_neg hB]
    | ⟨1, _⟩ => by show c.val = if (512 : ℕ) = 1 then 0 else c.val; rw [if_neg (by decide)]

end Cert.RegionMax

end
-- ==== Proof.KernelBlock.lean ====
/-
  What one grid point of the kernel leaves in its output block, as a function of its input block.

  The input block is four batch entries `x0[b, h, w, c]`. The body loads six bands of rows (rows 0–17, 0–23, 0–36, 9–26,
  13–36, 19–36, every column), takes for each band the maximum over its rows — a strip indexed (b, w, c) —, then for each
  of the 14 crops takes the maximum of its band's strip over the crop's columns, and stores the 14 results side by
  side as entries (b, r, c). So entry (b, r, c) is bounded by `z` iff for every column `w` of crop `r` and every row
  `h` of its band, `x0[b, h, w, c] ≤ z`; the band of crop `r` is exactly the crop's rows, so the entry is the maximum of
  `x0[b, ·, ·, c]` over crop `r` (`out_eq_cropMax`).
-/
import proofs.«172668_j41721312314087_2_alg».proof.Proof.Gen.KernelIdeal.Value
import proofs.«172668_j41721312314087_2_alg».proof.Proof.MaxOps

noncomputable section

namespace Cert.KernelIdeal.BlockValue

open Cert.KernelIdeal Cert.KernelIdeal.Gen Cert.KernelIdeal.Value Cert.RegionMax
open Idealize.ShloMosaic Idealize.ShloMosaic.ValueIdx

/-- A load of the rows `oy ≤ h < oy + N` of the block, every column: at (b, k, w, c) it reads the block at
    (b, oy + k, w, c). -/
theorem bandLoad_apply {N : ℕ} (oy : ℕ) (hy : oy + N ≤ 37) (x0 : Vec Ideal S4x37x37x512 .f32)
    (inb : ∀ a, (![0, oy, 0, 0] : Fin 4 → ℕ) a + (![4, N, 37, 512] : Fin 4 → ℕ) a ≤ S4x37x37x512.size a)
    (b : Fin 4) (k : Fin N) (w : Fin 37) (c : Fin 512) :
    View.ld x0 (Rect.unit (s := S4x37x37x512) ![0, oy, 0, 0] ![4, N, 37, 512] inb) (ix4 b k w c)
      = x0 (ix4 b ⟨oy + k.val, by have := k.isLt; omega⟩ w c) := by
  show x0 _ = x0 _
  refine congrArg x0 (funext fun d => Fin.ext ?_)
  match d with
  | ⟨0, _⟩ => show 0 + 1 * b.val = b.val; omega
  | ⟨1, _⟩ => show oy + 1 * k.val = oy + k.val; omega
  | ⟨2, _⟩ => show 0 + 1 * w.val = w.val; omega
  | ⟨3, _⟩ => show 0 + 1 * c.val = c.val; omega

/-- One crop's entry: the maximum, over columns `ox ≤ w < ox + N`, of the maximum over the rows of the band
    `oy ≤ h < oy + N`, is bounded by `z` iff every entry of the crop is. -/
theorem viaBand_le_iff {N : ℕ} (oy ox : ℕ) (hy : oy + N ≤ 37) (hx : ox + N ≤ 37) (x0 : Vec Ideal S4x37x37x512 .f32)
    (inb : ∀ a, (![0, oy, 0, 0] : Fin 4 → ℕ) a + (![4, N, 37, 512] : Fin 4 → ℕ) a ≤ S4x37x37x512.size a)
    (h1 : Shape.Reduces (⟨4, ![4, N, 37, 512]⟩ : Shape) [(1 : Fin 4)] ⟨3, ![4, 37, 512]⟩) (hφ1 : FKind.Formats .f32)
    (hacc1 : (0xFF800000#32 : BitVec 32) = FKind.maximumf.neutral .f32 hφ1)
    (hs : Shape.Slices (⟨3, ![4, 37, 512]⟩ : Shape) ![0, ox, 0] ⟨3, ![4, N, 512]⟩)
    (h2 : Shape.Reduces (⟨3, ![4, N, 512]⟩ : Shape) [(1 : Fin 3)] ⟨2, ![4, 512]⟩) (hφ2 : FKind.Formats .f32)
    (hacc2 : (0xFF800000#32 : BitVec 32) = FKind.maximumf.neutral .f32 hφ2)
    (hsc : Shape.ShapeCasts (⟨2, ![4, 512]⟩ : Shape) ⟨3, ![4, 1, 512]⟩) (b : Fin 4) (c : Fin 512) (z : EReal) :
    shapeCast ⟨3, ![4, 1, 512]⟩
        (multiReduction (F := Ideal) .maximumf [(1 : Fin 3)] ⟨2, ![4, 512]⟩
          (extractStridedSlice ⟨3, ![4, N, 512]⟩ ![0, ox, 0]
            (multiReduction (F := Ideal) (s := ⟨4, ![4, N, 37, 512]⟩) .maximumf [(1 : Fin 4)] ⟨3, ![4, 37, 512]⟩
              (View.ld x0 (Rect.unit (s := S4x37x37x512) ![0, oy, 0, 0] ![4, N, 37, 512] inb))
              0xFF800000#32 h1 hφ1 hacc1) hs)
          0xFF800000#32 h2 hφ2 hacc2) hsc (ix3 b (0 : Fin 1) c) ≤ z
      ↔ ∀ h w : Fin 37, InCrop oy ox N h w → x0 (ix4 b h w c) ≤ z := by
  rw [unitAxis_apply, colsMax_le_iff]
  refine Iff.trans ?_ (forall_crop_iff hy hx fun h w => x0 (ix4 b h w c) ≤ z)
  constructor
  · intro H h w
    have Hw := H w
    rw [colSlice_apply ox hx, rowsMax_le_iff] at Hw
    have Hhw := Hw h
    rwa [bandLoad_apply oy hy] at Hhw
  · intro H w
    rw [colSlice_apply ox hx, rowsMax_le_iff]
    intro h
    rw [bandLoad_apply oy hy]
    exact H h w

/-- The crop that is the whole grid: the maximum over all columns of the maximum over all rows. -/
theorem viaWhole_le_iff (x0 : Vec Ideal S4x37x37x512 .f32)
    (inb : ∀ a, (![0, 0, 0, 0] : Fin 4 → ℕ) a + (![4, 37, 37, 512] : Fin 4 → ℕ) a ≤ S4x37x37x512.size a)
    (h1 : Shape.Reduces (⟨4, ![4, 37, 37, 512]⟩ : Shape) [(1 : Fin 4)] ⟨3, ![4, 37, 512]⟩) (hφ1 : FKind.Formats .f32)
    (hacc1 : (0xFF800000#32 : BitVec 32) = FKind.maximumf.neutral .f32 hφ1)
    (h2 : Shape.Reduces (⟨3, ![4, 37, 512]⟩ : Shape) [(1 : Fin 3)] ⟨2, ![4, 512]⟩) (hφ2 : FKind.Formats .f32)
    (hacc2 : (0xFF800000#32 : BitVec 32) = FKind.maximumf.neutral .f32 hφ2)
    (hsc : Shape.ShapeCasts (⟨2, ![4, 512]⟩ : Shape) ⟨3, ![4, 1, 512]⟩) (b : Fin 4) (c : Fin 512) (z : EReal) :
    shapeCast ⟨3, ![4, 1, 512]⟩
        (multiReduction (F := Ideal) .maximumf [(1 : Fin 3)] ⟨2, ![4, 512]⟩
          (multiReduction (F := Ideal) (s := ⟨4, ![4, 37, 37, 512]⟩) .maximumf [(1 : Fin 4)] ⟨3, ![4, 37, 512]⟩
            (View.ld x0 (Rect.unit (s := S4x37x37x512) ![0, 0, 0, 0] ![4, 37, 37, 512] inb))
            0xFF800000#32 h1 hφ1 hacc1)
          0xFF800000#32 h2 hφ2 hacc2) hsc (ix3 b (0 : Fin 1) c) ≤ z
      ↔ ∀ h w : Fin 37, InCrop 0 0 37 h w → x0 (ix4 b h w c) ≤ z := by
  rw [unitAxis_apply, colsMax_le_iff]
  constructor
  · intro H h w _
    have Hw := H w
    rw [rowsMax_le_iff] at Hw
    have Hhw := Hw h
    rw [bandLoad_apply 0 (by omega)] at Hhw
    have e : (⟨0 + h.val, by have := h.isLt; omega⟩ : Fin 37) = h := Fin.ext (Nat.zero_add _)
    rwa [e] at Hhw
  · intro H w
    rw [rowsMax_le_iff]
    intro h
    rw [bandLoad_apply 0 (by omega)]
    exact H _ w ⟨Nat.zero_le _, by have := h.isLt; show 0 + h.val < 0 + 37; omega, Nat.zero_le _,
      by have := w.isLt; show w.val < 0 + 37; omega⟩

/-- Each of the 14 values the body stores side by side, at (b, c), is bounded by `z` iff every entry of its crop is:
    crop `r` is read off the band that has its rows, at its columns. -/
theorem operand_le_iff (x0 : Vec Ideal S4x37x37x512 .f32) (b : Fin 4) (c : Fin 512) (z : EReal) : ∀ r : Fin 14,
    Cat1_0 (F := Ideal) (View.ld x0 r0_2) (View.ld x0 r0_1) (View.ld x0 r0_4) (View.ld x0 r0_0) (View.ld x0 r0_3)
        (View.ld x0 r0_5) r (ix3 b (0 : Fin 1) c) ≤ z
      ↔ ∀ h w : Fin 37, InCrop (rowOff r) (colOff r) (side r) h w → x0 (ix4 b h w c) ≤ z
  | ⟨0, _⟩ => viaWhole_le_iff x0 _ _ _ _ _ _ _ _ b c z
  | ⟨1, _⟩ => viaBand_le_iff 0 0 (by omega) (by omega) x0 _ _ _ _ _ _ _ _ _ b c z
  | ⟨2, _⟩ => viaBand_le_iff 0 13 (by omega) (by omega) x0 _ _ _ _ _ _ _ _ _ b c z
  | ⟨3, _⟩ => viaBand_le_iff 13 0 (by omega) (by omega) x0 _ _ _ _ _ _ _ _ _ b c z
  | ⟨4, _⟩ => viaBand_le_iff 13 13 (by omega) (by omega) x0 _ _ _ _ _ _ _ _ _ b c z
  | ⟨5, _⟩ => viaBand_le_iff 0 0 (by omega) (by omega) x0 _ _ _ _ _ _ _ _ _ b c z
  | ⟨6, _⟩ => viaBand_le_iff 0 9 (by omega) (by omega) x0 _ _ _ _ _ _ _ _ _ b c z
  | ⟨7, _⟩ => viaBand_le_iff 0 19 (by omega) (by omega) x0 _ _ _ _ _ _ _ _ _ b c z
  | ⟨8, _⟩ => viaBand_le_iff 9 0 (by omega) (by omega) x0 _ _ _ _ _ _ _ _ _ b c z
  | ⟨9, _⟩ => viaBand_le_iff 9 9 (by omega) (by omega) x0 _ _ _ _ _ _ _ _ _ b c z
  | ⟨10, _⟩ => viaBand_le_iff 9 19 (by omega) (by omega) x0 _ _ _ _ _ _ _ _ _ b c z
  | ⟨11, _⟩ => viaBand_le_iff 19 0 (by omega) (by omega) x0 _ _ _ _ _ _ _ _ _ b c z
  | ⟨12, _⟩ => viaBand_le_iff 19 9 (by omega) (by omega) x0 _ _ _ _ _ _ _ _ _ b c z
  | ⟨13, _⟩ => viaBand_le_iff 19 19 (by omega) (by omega) x0 _ _ _ _ _ _ _ _ _ b c z

/-- Where entry (b, r, c) of the stored block sits in the value stored for crop `r`: at (b, 0, c). -/
theorem operandIdx_eq (b : Fin 4) (r : Fin 14) (c : Fin 512) : ix1_0 (ix3 b r c) = ix3 b (0 : Fin 1) c :=
  funext fun a => match a with
    | ⟨0, _⟩ => rfl
    | ⟨1, _⟩ => rfl
    | ⟨2, _⟩ => rfl

/-- THE BLOCK: what the body leaves in the output block is the crop maxima of the input block. -/
theorem out_eq_cropMax (x0 : Vec Ideal S4x37x37x512 .f32) : out0_1 x0 = cropMax x0 := by
  funext y
  obtain ⟨b, r, c, rfl⟩ : ∃ (b : Fin 4) (r : Fin 14) (c : Fin 512), y = ix3 b r c := ⟨y 0, y 1, y 2, eq_ix3 y⟩
  unfold out0_1
  rw [canon1_eq]
  refine eq_cropMaxAt_of_le_iff x0 b r c _ fun z => ?_
  show Cat1_0 (F := Ideal) (View.ld x0 r0_2) (View.ld x0 r0_1) (View.ld x0 r0_4) (View.ld x0 r0_0) (View.ld x0 r0_3)
      (View.ld x0 r0_5) r (ix1_0 (ix3 b r c)) ≤ z ↔ _
  rw [operandIdx_eq]
  exact operand_le_iff x0 b c z r

end Cert.KernelIdeal.BlockValue

end
-- ==== Proof.KernelArray.lean ====
/-
  From the kernel's blocks to its result array.

  The grid has 16 points; point `t` works on batch entries 4t … 4t + 3: its input block is those entries of the input
  array (every row, column and channel) and its output block those entries of the result (every crop and channel). By
  the block lemma the output block is the crop maxima of the input block, and the crop maximum of batch entry
  4t + b only reads that batch entry, so point `t` writes back block `t` of the crop maxima of the WHOLE input array
  (`flushed_eq`). The 16 blocks cover the 64 batch entries (entry B is in block B / 4), so the result array ends as
  the crop maxima of the input array (`final`, `run`).
-/
import proofs.«172668_j41721312314087_2_alg».proof.Proof.KernelBlock

noncomputable section

namespace Cert.KernelIdeal.ArrayValue

open Cert.KernelIdeal Cert.KernelIdeal.Gen Cert.KernelIdeal.Value Cert.KernelIdeal.BlockValue Cert.RegionMax
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The index maps, decided over the 16 points: point `t`'s blocks are block `t` along the batch axis and block 0 along
    every other axis, for the input and for the result. -/
theorem blockIdx : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0 :=
  (by decide +kernel : ∀ t : Fin grid0.N, _)

/-- Point `t`'s input block at (b, h, w, c) is the input array at batch entry 4t + b. -/
theorem iblk_apply (c : Dev nD) (t : Fin cfg0.N) (b : Fin 4) (h w : Fin 37) (cc : Fin 512) (B : Fin 64)
    (hB : B.val = t.val * 4 + b.val) :
    iblk m c 0 t (ix4 b h w cc) = V m c main_arg0 (ix4 B h w cc) := by
  show V m c main_arg0 (((cfg0.win 0).blk t).view.emb (ix4 b h w cc)) = V m c main_arg0 (ix4 B h w cc)
  obtain ⟨e0, e1, e2, e3, -, -, -⟩ := blockIdx t
  refine congrArg (V m c main_arg0) (funext fun a => Fin.ext ?_)
  match a with
  | ⟨0, _⟩ => show win0_0.index t (0 : Fin 4) * 4 + 1 * b.val = B.val; omega
  | ⟨1, _⟩ => show win0_0.index t (1 : Fin 4) * 37 + 1 * h.val = h.val; omega
  | ⟨2, _⟩ => show win0_0.index t (2 : Fin 4) * 37 + 1 * w.val = w.val; omega
  | ⟨3, _⟩ => show win0_0.index t (3 : Fin 4) * 512 + 1 * cc.val = cc.val; omega

/-- WHAT POINT `t` WRITES BACK is block `t` of the crop maxima of the input array as the region finds it. -/
theorem flushed_eq (c : Dev nD) (t : Fin cfg0.N) :
    (dats m 0 c).flushed 1 t = ((cfg0.win 1).blk t).view.read (Elt Ideal) (cropMax (V m c main_arg0)) := by
  rw [flushed1, out_eq_cropMax]
  funext j
  obtain ⟨b, r, cc, rfl⟩ : ∃ (b : Fin 4) (r : Fin 14) (cc : Fin 512), j = (ix3 b r cc : S4x14x512.Idx) :=
    ⟨j 0, j 1, j 2, eq_ix3 (n0 := 4) (n1 := 14) (n2 := 512) j⟩
  have ht : t.val < 16 := by have h16 : cfg0.N = 16 := N_0; have := t.isLt; omega
  obtain ⟨-, -, -, -, e0, e1, e2⟩ := blockIdx t
  have hemb : ((cfg0.win 1).blk t).view.emb (ix3 b r cc) = ix3 (⟨t.val * 4 + b.val, by have := b.isLt; omega⟩ : Fin 64) r cc :=
    funext fun a => Fin.ext (match a with
      | ⟨0, _⟩ => by show win0_1.index t (0 : Fin 3) * 4 + 1 * b.val = t.val * 4 + b.val; omega
      | ⟨1, _⟩ => by show win0_1.index t (1 : Fin 3) * 14 + 1 * r.val = r.val; omega
      | ⟨2, _⟩ => by show win0_1.index t (2 : Fin 3) * 512 + 1 * cc.val = cc.val; omega)
  show cropMax (iblk m c 0 t) (ix3 b r cc) = cropMax (V m c main_arg0) (((cfg0.win 1).blk t).view.emb (ix3 b r cc))
  rw [hemb]
  show cropMaxAt (iblk m c 0 t) b r cc = cropMaxAt (V m c main_arg0) ⟨t.val * 4 + b.val, _⟩ r cc
  unfold cropMaxAt
  exact Finset.sup_congr rfl fun p _ => iblk_apply m c t b p.1 p.2 cc _ rfl

/-- An index of the result is in point `t`'s block iff each coordinate is in the block's range on its axis. -/
theorem mem_blk (t : Fin cfg0.N) (i : S64x14x512.Idx) :
    i ∈ ((cfg0.win 1).blk t).view.set ↔ ∀ a : Fin 3, win0_1.index t a * S4x14x512.size a ≤ (i a).val
      ∧ (i a).val < win0_1.index t a * S4x14x512.size a + S4x14x512.size a := by
  show i ∈ ((View.whole main_v0).slice (win0_1.rect t)).set ↔ _
  rw [View.set_slice_whole, Rect.mem_set_unit]
  exact Iff.rfl

/-- Every index of the result is in some point's block: batch entry B is written by point B / 4. -/
theorem covered (i : S64x14x512.Idx) :
    ∃ t : Fin cfg0.N, (cfg0.win 1).flush t = true ∧ i ∈ ((cfg0.win 1).blk t).view.set := by
  have hi0 : (i 0).val < 64 := (i 0).isLt
  have hi1 : (i 1).val < 14 := (i 1).isLt
  have hi2 : (i 2).val < 512 := (i 2).isLt
  have hN : cfg0.N = 16 := N_0
  obtain ⟨t, ht⟩ : ∃ t : Fin cfg0.N, t.val = (i 0).val / 4 := ⟨⟨(i 0).val / 4, by omega⟩, rfl⟩
  obtain ⟨-, -, -, -, e0, e1, e2⟩ := blockIdx t
  refine ⟨t, flush0_1 t, ?_⟩
  rw [mem_blk]
  intro a
  match a with
  | ⟨0, _⟩ =>
    show win0_1.index t (0 : Fin 3) * 4 ≤ (i 0).val ∧ (i 0).val < win0_1.index t (0 : Fin 3) * 4 + 4
    omega
  | ⟨1, _⟩ =>
    show win0_1.index t (1 : Fin 3) * 14 ≤ (i 1).val ∧ (i 1).val < win0_1.index t (1 : Fin 3) * 14 + 14
    omega
  | ⟨2, _⟩ =>
    show win0_1.index t (2 : Fin 3) * 512 ≤ (i 2).val ∧ (i 2).val < win0_1.index t (2 : Fin 3) * 512 + 512
    omega

/-- THE RESULT ARRAY after the run: the crop maxima of the input array. -/
theorem final (c : Dev nD) :
    (dats m 0 c).arrAt 1 cfg0.N = cropMax (m ((c : Thread nD τ).loc main_arg0)) :=
  (dats m 0 c).arrAt_eq_of_cover 1 (cropMax (V m c main_arg0)) (fun t _ => flushed_eq m c t) covered

/-- The kernel's run, read: it terminates with the result array at the crop maxima of the input array, the input
    array unchanged. -/
theorem run : θ_run defs (onTc (τ := τ) (main (F := Ideal))) ⟨m, fun _ => 0, ρ⟩ fun r => ∀ c : Dev nD,
      r.2.mem ((c : Thread nD τ).loc main_v0) = cropMax (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.ArrayValue

end
-- ==== Proof.RefValue.lean ====
/-
  The reference's result, as a function of its argument.

  The reference takes, for each of the 14 crops, the slice of the input array on the crop's rows and columns, its
  maximum over rows and columns at once (started from `-∞`), a unit axis in the middle, and concatenates the 14 arrays
  along that axis. So entry (B, r, c) of the result is entry (B, 0, c) of the r-th array, which is bounded by `z` iff
  every entry of `x[B, ·, ·, c]` in crop `r` is: the result is the crop maxima of the input array.
-/
import proofs.«172668_j41721312314087_2_alg».proof.Proof.RefRun
import proofs.«172668_j41721312314087_2_alg».proof.Proof.MaxOps

noncomputable section

namespace Cert.ReferenceIdeal.RefValue

open Cert.ReferenceIdeal Cert.ReferenceIdeal.Gen Cert.ReferenceIdeal.ValueP Cert.RegionMax
open Idealize.ShloMosaic Idealize.ShloMosaic.TcCoe Idealize.SL.Sem Idealize.ShloMosaic.ValueIdx

/-- One crop of the reference: the maximum over the slice on rows `oy ≤ h < oy + n` and columns `ox ≤ w < ox + n`, with
    its unit axis, at (B, 0, c), is bounded by `z` iff every entry of the crop is. -/
theorem crop_le_iff {n : ℕ} (oy ox : ℕ) (hy : oy + n ≤ 37) (hx : ox + n ≤ 37)
    (x : (⟨4, ![64, 37, 37, 512]⟩ : Shape).Idx → EReal)
    (hb : Shape.BroadcastsInDim (⟨2, ![64, 512]⟩ : Shape) ⟨3, ![64, 1, 512]⟩ (![0, 2] : Fin 2 → Fin 3))
    (hs : Shape.Slices (⟨4, ![64, 37, 37, 512]⟩ : Shape) ![0, oy, ox, 0] ⟨4, ![64, n, n, 512]⟩)
    (hr : Shape.ReducesTo (⟨4, ![64, n, n, 512]⟩ : Shape) [(1 : Fin 4), (2 : Fin 4)] ⟨2, ![64, 512]⟩)
    (h0 : 0 < (⟨0, ![]⟩ : Shape).numel) (B : Fin 64) (c : Fin 512) (z : EReal) :
    broadcastInDim ⟨3, ![64, 1, 512]⟩ (![0, 2] : Fin 2 → Fin 3) hb
        (Host.reduce (FloatOps.maximumf (F := Ideal) (φ := .f32))
          (extractStridedSlice ⟨4, ![64, n, n, 512]⟩ ![0, oy, ox, 0] x hs)
          (constant (F := Ideal) ⟨0, ![]⟩ .f32 0xFF800000#32) hr h0) (ix3 B (0 : Fin 1) c) ≤ z
      ↔ ∀ h w : Fin 37, InCrop oy ox n h w → x (ix4 B h w c) ≤ z := by
  rw [unitBroadcast_apply (by decide), planeMax_le_iff]
  refine Iff.trans ?_ (forall_crop_iff hy hx fun h w => x (ix4 B h w c) ≤ z)
  exact forall_congr' fun h => forall_congr' fun w => by rw [cropSlice_apply oy ox hy hx]

/-- The crop that is the whole grid: no slice. -/
theorem whole_le_iff (x : (⟨4, ![64, 37, 37, 512]⟩ : Shape).Idx → EReal)
    (hb : Shape.BroadcastsInDim (⟨2, ![64, 512]⟩ : Shape) ⟨3, ![64, 1, 512]⟩ (![0, 2] : Fin 2 → Fin 3))
    (hr : Shape.ReducesTo (⟨4, ![64, 37, 37, 512]⟩ : Shape) [(1 : Fin 4), (2 : Fin 4)] ⟨2, ![64, 512]⟩)
    (h0 : 0 < (⟨0, ![]⟩ : Shape).numel) (B : Fin 64) (c : Fin 512) (z : EReal) :
    broadcastInDim ⟨3, ![64, 1, 512]⟩ (![0, 2] : Fin 2 → Fin 3) hb
        (Host.reduce (FloatOps.maximumf (F := Ideal) (φ := .f32)) x
          (constant (F := Ideal) ⟨0, ![]⟩ .f32 0xFF800000#32) hr h0) (ix3 B (0 : Fin 1) c) ≤ z
      ↔ ∀ h w : Fin 37, InCrop 0 0 37 h w → x (ix4 B h w c) ≤ z := by
  rw [unitBroadcast_apply (by decide), planeMax_le_iff]
  exact ⟨fun H h w _ => H h w, fun H h w => H h w ⟨Nat.zero_le _, by have := h.isLt; omega, Nat.zero_le _,
    by have := w.isLt; omega⟩⟩

/-- The 14 arrays the reference concatenates, as functions of the input array. -/
abbrev operand (x : S64x37x37x512.Idx → EReal) : Fin 14 → (S64x1x512.Idx → EReal)
  | ⟨0, _⟩ => broadcastInDim S64x1x512 ![0, 2] bcast_S64x512_S64x1x512_0_2 (Host.reduce (FloatOps.maximumf (F := Ideal) (φ := .f32)) x (constant (F := Ideal) S_ .f32 0xFF800000#32) reducesTo_S64x37x37x512_S64x512_d1_2 h_S_)
  | ⟨1, _⟩ => broadcastInDim S64x1x512 ![0, 2] bcast_S64x512_S64x1x512_0_2 (Host.reduce (FloatOps.maximumf (F := Ideal) (φ := .f32)) (extractStridedSlice S64x24x24x512 ![0, 0, 0, 0] x slices_S64x37x37x512_S64x24x24x512_0_0_0_0) (constant (F := Ideal) S_ .f32 0xFF800000#32) reducesTo_S64x24x24x512_S64x512_d1_2 h_S_)
  | ⟨2, _⟩ => broadcastInDim S64x1x512 ![0, 2] bcast_S64x512_S64x1x512_0_2 (Host.reduce (FloatOps.maximumf (F := Ideal) (φ := .f32)) (extractStridedSlice S64x24x24x512 ![0, 0, 13, 0] x slices_S64x37x37x512_S64x24x24x512_0_0_13_0) (constant (F := Ideal) S_ .f32 0xFF800000#32) reducesTo_S64x24x24x512_S64x512_d1_2 h_S_)
  | ⟨3, _⟩ => broadcastInDim S64x1x512 ![0, 2] bcast_S64x512_S64x1x512_0_2 (Host.reduce (FloatOps.maximumf (F := Ideal) (φ := .f32)) (extractStridedSlice S64x24x24x512 ![0, 13, 0, 0] x slices_S64x37x37x512_S64x24x24x512_0_13_0_0) (constant (F := Ideal) S_ .f32 0xFF800000#32) reducesTo_S64x24x24x512_S64x512_d1_2 h_S_)
  | ⟨4, _⟩ => broadcastInDim S64x1x512 ![0, 2] bcast_S64x512_S64x1x512_0_2 (Host.reduce (FloatOps.maximumf (F := Ideal) (φ := .f32)) (extractStridedSlice S64x24x24x512 ![0, 13, 13, 0] x slices_S64x37x37x512_S64x24x24x512_0_13_13_0) (constant (F := Ideal) S_ .f32 0xFF800000#32) reducesTo_S64x24x24x512_S64x512_d1_2 h_S_)
  | ⟨5, _⟩ => broadcastInDim S64x1x512 ![0, 2] bcast_S64x512_S64x1x512_0_2 (Host.reduce (FloatOps.maximumf (F := Ideal) (φ := .f32)) (extractStridedSlice S64x18x18x512 ![0, 0, 0, 0] x slices_S64x37x37x512_S64x18x18x512_0_0_0_0) (constant (F := Ideal) S_ .f32 0xFF800000#32) reducesTo_S64x18x18x512_S64x512_d1_2 h_S_)
  | ⟨6, _⟩ => broadcastInDim S64x1x512 ![0, 2] bcast_S64x512_S64x1x512_0_2 (Host.reduce (FloatOps.maximumf (F := Ideal) (φ := .f32)) (extractStridedSlice S64x18x18x512 ![0, 0, 9, 0] x slices_S64x37x37x512_S64x18x18x512_0_0_9_0) (constant (F := Ideal) S_ .f32 0xFF800000#32) reducesTo_S64x18x18x512_S64x512_d1_2 h_S_)
  | ⟨7, _⟩ => broadcastInDim S64x1x512 ![0, 2] bcast_S64x512_S64x1x512_0_2 (Host.reduce (FloatOps.maximumf (F := Ideal) (φ := .f32)) (extractStridedSlice S64x18x18x512 ![0, 0, 19, 0] x slices_S64x37x37x512_S64x18x18x512_0_0_19_0) (constant (F := Ideal) S_ .f32 0xFF800000#32) reducesTo_S64x18x18x512_S64x512_d1_2 h_S_)
  | ⟨8, _⟩ => broadcastInDim S64x1x512 ![0, 2] bcast_S64x512_S64x1x512_0_2 (Host.reduce (FloatOps.maximumf (F := Ideal) (φ := .f32)) (extractStridedSlice S64x18x18x512 ![0, 9, 0, 0] x slices_S64x37x37x512_S64x18x18x512_0_9_0_0) (constant (F := Ideal) S_ .f32 0xFF800000#32) reducesTo_S64x18x18x512_S64x512_d1_2 h_S_)
  | ⟨9, _⟩ => broadcastInDim S64x1x512 ![0, 2] bcast_S64x512_S64x1x512_0_2 (Host.reduce (FloatOps.maximumf (F := Ideal) (φ := .f32)) (extractStridedSlice S64x18x18x512 ![0, 9, 9, 0] x slices_S64x37x37x512_S64x18x18x512_0_9_9_0) (constant (F := Ideal) S_ .f32 0xFF800000#32) reducesTo_S64x18x18x512_S64x512_d1_2 h_S_)
  | ⟨10, _⟩ => broadcastInDim S64x1x512 ![0, 2] bcast_S64x512_S64x1x512_0_2 (Host.reduce (FloatOps.maximumf (F := Ideal) (φ := .f32)) (extractStridedSlice S64x18x18x512 ![0, 9, 19, 0] x slices_S64x37x37x512_S64x18x18x512_0_9_19_0) (constant (F := Ideal) S_ .f32 0xFF800000#32) reducesTo_S64x18x18x512_S64x512_d1_2 h_S_)
  | ⟨11, _⟩ => broadcastInDim S64x1x512 ![0, 2] bcast_S64x512_S64x1x512_0_2 (Host.reduce (FloatOps.maximumf (F := Ideal) (φ := .f32)) (extractStridedSlice S64x18x18x512 ![0, 19, 0, 0] x slices_S64x37x37x512_S64x18x18x512_0_19_0_0) (constant (F := Ideal) S_ .f32 0xFF800000#32) reducesTo_S64x18x18x512_S64x512_d1_2 h_S_)
  | ⟨12, _⟩ => broadcastInDim S64x1x512 ![0, 2] bcast_S64x512_S64x1x512_0_2 (Host.reduce (FloatOps.maximumf (F := Ideal) (φ := .f32)) (extractStridedSlice S64x18x18x512 ![0, 19, 9, 0] x slices_S64x37x37x512_S64x18x18x512_0_19_9_0) (constant (F := Ideal) S_ .f32 0xFF800000#32) reducesTo_S64x18x18x512_S64x512_d1_2 h_S_)
  | ⟨13, _⟩ => broadcastInDim S64x1x512 ![0, 2] bcast_S64x512_S64x1x512_0_2 (Host.reduce (FloatOps.maximumf (F := Ideal) (φ := .f32)) (extractStridedSlice S64x18x18x512 ![0, 19, 19, 0] x slices_S64x37x37x512_S64x18x18x512_0_19_19_0) (constant (F := Ideal) S_ .f32 0xFF800000#32) reducesTo_S64x18x18x512_S64x512_d1_2 h_S_)

/-- Each of them, at (B, 0, c), is bounded by `z` iff every entry of its crop is. -/
theorem operand_le_iff (x : S64x37x37x512.Idx → EReal) (B : Fin 64) (c : Fin 512) (z : EReal) : ∀ r : Fin 14,
    operand x r (ix3 B (0 : Fin 1) c) ≤ z
      ↔ ∀ h w : Fin 37, InCrop (rowOff r) (colOff r) (side r) h w → x (ix4 B h w c) ≤ z
  | ⟨0, _⟩ => whole_le_iff x bcast_S64x512_S64x1x512_0_2 reducesTo_S64x37x37x512_S64x512_d1_2 h_S_ B c z
  | ⟨1, _⟩ => crop_le_iff 0 0 (by omega) (by omega) x bcast_S64x512_S64x1x512_0_2 slices_S64x37x37x512_S64x24x24x512_0_0_0_0 reducesTo_S64x24x24x512_S64x512_d1_2 h_S_ B c z
  | ⟨2, _⟩ => crop_le_iff 0 13 (by omega) (by omega) x bcast_S64x512_S64x1x512_0_2 slices_S64x37x37x512_S64x24x24x512_0_0_13_0 reducesTo_S64x24x24x512_S64x512_d1_2 h_S_ B c z
  | ⟨3, _⟩ => crop_le_iff 13 0 (by omega) (by omega) x bcast_S64x512_S64x1x512_0_2 slices_S64x37x37x512_S64x24x24x512_0_13_0_0 reducesTo_S64x24x24x512_S64x512_d1_2 h_S_ B c z
  | ⟨4, _⟩ => crop_le_iff 13 13 (by omega) (by omega) x bcast_S64x512_S64x1x512_0_2 slices_S64x37x37x512_S64x24x24x512_0_13_13_0 reducesTo_S64x24x24x512_S64x512_d1_2 h_S_ B c z
  | ⟨5, _⟩ => crop_le_iff 0 0 (by omega) (by omega) x bcast_S64x512_S64x1x512_0_2 slices_S64x37x37x512_S64x18x18x512_0_0_0_0 reducesTo_S64x18x18x512_S64x512_d1_2 h_S_ B c z
  | ⟨6, _⟩ => crop_le_iff 0 9 (by omega) (by omega) x bcast_S64x512_S64x1x512_0_2 slices_S64x37x37x512_S64x18x18x512_0_0_9_0 reducesTo_S64x18x18x512_S64x512_d1_2 h_S_ B c z
  | ⟨7, _⟩ => crop_le_iff 0 19 (by omega) (by omega) x bcast_S64x512_S64x1x512_0_2 slices_S64x37x37x512_S64x18x18x512_0_0_19_0 reducesTo_S64x18x18x512_S64x512_d1_2 h_S_ B c z
  | ⟨8, _⟩ => crop_le_iff 9 0 (by omega) (by omega) x bcast_S64x512_S64x1x512_0_2 slices_S64x37x37x512_S64x18x18x512_0_9_0_0 reducesTo_S64x18x18x512_S64x512_d1_2 h_S_ B c z
  | ⟨9, _⟩ => crop_le_iff 9 9 (by omega) (by omega) x bcast_S64x512_S64x1x512_0_2 slices_S64x37x37x512_S64x18x18x512_0_9_9_0 reducesTo_S64x18x18x512_S64x512_d1_2 h_S_ B c z
  | ⟨10, _⟩ => crop_le_iff 9 19 (by omega) (by omega) x bcast_S64x512_S64x1x512_0_2 slices_S64x37x37x512_S64x18x18x512_0_9_19_0 reducesTo_S64x18x18x512_S64x512_d1_2 h_S_ B c z
  | ⟨11, _⟩ => crop_le_iff 19 0 (by omega) (by omega) x bcast_S64x512_S64x1x512_0_2 slices_S64x37x37x512_S64x18x18x512_0_19_0_0 reducesTo_S64x18x18x512_S64x512_d1_2 h_S_ B c z
  | ⟨12, _⟩ => crop_le_iff 19 9 (by omega) (by omega) x bcast_S64x512_S64x1x512_0_2 slices_S64x37x37x512_S64x18x18x512_0_19_9_0 reducesTo_S64x18x18x512_S64x512_d1_2 h_S_ B c z
  | ⟨13, _⟩ => crop_le_iff 19 19 (by omega) (by omega) x bcast_S64x512_S64x1x512_0_2 slices_S64x37x37x512_S64x18x18x512_0_19_19_0 reducesTo_S64x18x18x512_S64x512_d1_2 h_S_ B c z

/-- THE REFERENCE'S RESULT is the crop maxima of its argument. -/
theorem res_eq_cropMax (m : (ℓ : Loc nD τ sig) → Buf (Elt Ideal) ℓ) (c : Dev nD) :
    res_main_v41 (F := Ideal) m c = cropMax (m ((c.tc : Thread nD τ).loc main_arg0) : S64x37x37x512.Idx → EReal) := by
  show (res_main_v41 (F := Ideal) m c : S64x14x512.Idx → EReal) = _
  funext i
  obtain ⟨B, r, cc, rfl⟩ : ∃ (B : Fin 64) (r : Fin 14) (cc : Fin 512), i = (ix3 B r cc : S64x14x512.Idx) :=
    ⟨i 0, i 1, i 2, eq_ix3 (n0 := 64) (n1 := 14) (n2 := 512) i⟩
  refine eq_cropMaxAt_of_le_iff _ B r cc _ fun z => ?_
  have e : res_main_v41 (F := Ideal) m c (ix3 B r cc)
      = operand (m ((c.tc : Thread nD τ).loc main_arg0)) r (ix3 B (0 : Fin 1) cc) := by
    unfold res_main_v41
    show concatenate S64x14x512 1 (List.ofFn fun n : Fin 14 =>
        (⟨S64x1x512, operand (m ((c.tc : Thread nD τ).loc main_arg0)) n⟩ : (s : Shape) × (s.Idx → EReal))) _ (ix3 B r cc) = _
    exact concatenate_ofFn_apply (t := S64x14x512) (s₁ := S64x1x512) (1 : Fin 3)
      (operand (m ((c.tc : Thread nD τ).loc main_arg0))) _ rfl 1 rfl (ix3 B r cc) r
      (by show r.val / 1 = r.val; omega) (ix3 B (0 : Fin 1) cc) (by show 0 = r.val % 1; omega)
      (fun b hb => by
        match b with
        | ⟨0, _⟩ => rfl
        | ⟨1, _⟩ => exact absurd rfl hb
        | ⟨2, _⟩ => rfl)
  rw [e]
  exact operand_le_iff _ B cc z r

end Cert.ReferenceIdeal.RefValue

end
-- ==== Proof.lean ====
/-
  Regional max pooling: a Pallas kernel against its jnp reference, on the extended reals.

  Input `x : f32[64, 37, 37, 512]` (batch, rows, columns, channels); result `f32[64, 14, 512]`: for each batch entry and
  channel, the maximum of `x` over each of 14 square crops of the 37 × 37 grid (the whole grid, four 24 × 24 squares, nine
  18 × 18 squares: Proof/CropMax.lean).

  The reference slices each crop out of the array and takes ONE maximum over its rows and columns. The kernel works on
  four batch entries per grid point, and factors the work: one maximum over the ROWS of each of the six distinct row
  bands, then for each crop one maximum over its COLUMNS of its band's result. Both maxima start from `-∞`.

  On the extended reals `max` is the lattice join and `-∞` its bottom, so either way the result at (b, r, c) is the
  supremum of the same finite family `{x[b, h, w, c] : (h, w) in crop r}`: a value is that supremum iff its upper bounds
  are exactly the common upper bounds of the family, and "the maximum over columns of the maxima over rows is `≤ z`"
  unfolds to "every entry is `≤ z`" just as "the maximum over rows and columns is `≤ z`" does. No entry needs to be
  finite, and no order of evaluation matters: the precondition is not used by the value claim.

  Modules: CropMax (the specification and its characterisation), MaxOps (the operations read at an index),
  KernelBlock (one grid point's block), KernelArray (the 16 blocks tile the result; the kernel's run), RefRun (the
  reference's run: its 56 operations composed), RefValue (the reference's result is the specification).
  The frames of the two kernel programs are the generated frame certificates; the idealization rewrote nothing, so
  `preserves` is trivial.
-/
import proofs.«172668_j41721312314087_2_alg».proof.Defs
import proofs.«172668_j41721312314087_2_alg».proof.Proof.Gen.Kernel
import proofs.«172668_j41721312314087_2_alg».proof.Proof.Gen.Kernel.Skeleton
import proofs.«172668_j41721312314087_2_alg».proof.Proof.Gen.Kernel.Launch
import proofs.«172668_j41721312314087_2_alg».proof.Proof.Gen.Kernel.Points
import proofs.«172668_j41721312314087_2_alg».proof.Proof.Gen.Kernel.Frame
import proofs.«172668_j41721312314087_2_alg».proof.Proof.Gen.KernelIdeal
import proofs.«172668_j41721312314087_2_alg».proof.Proof.Gen.KernelIdeal.Skeleton
import proofs.«172668_j41721312314087_2_alg».proof.Proof.Gen.KernelIdeal.Launch
import proofs.«172668_j41721312314087_2_alg».proof.Proof.Gen.KernelIdeal.Points
import proofs.«172668_j41721312314087_2_alg».proof.Proof.Gen.KernelIdeal.Frame
import proofs.«172668_j41721312314087_2_alg».proof.Proof.Gen.ReferenceIdeal
import proofs.«172668_j41721312314087_2_alg».proof.Proof.Gen.Pre_finite_inputs
import proofs.«172668_j41721312314087_2_alg».proof.Proof.Gen.KernelIdeal.Value
import proofs.«172668_j41721312314087_2_alg».proof.Proof.RefRun
import proofs.«172668_j41721312314087_2_alg».proof.Proof.KernelArray
import proofs.«172668_j41721312314087_2_alg».proof.Proof.RefValue
import Idealize.ShloMosaic.Adequacy
import Idealize.ShloMosaic.Init

noncomputable section

namespace Cert.Proof

open Idealize.ShloMosaic Idealize.SL.Sem Cert.Kernel

/-- The kernel as printed runs and leaves its argument unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its argument unchanged: its run, with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation of the kernel. -/
theorem preserves : Cert.preserves_Kernel_KernelIdeal := trivial

/-- From memories that agree on the argument, the kernel's result array and the reference's both end at the crop
    maxima of the argument: the supremum over each crop, whichever way the maximum is grouped. -/
theorem algebraic : Cert.algebraic_KernelIdeal_ReferenceIdeal := by
  intro m ρ m' ρ' _ hagree
  refine ⟨fun c => Cert.RegionMax.cropMax
      (m ((c.tc : Thread Cert.KernelIdeal.nD Cert.KernelIdeal.τ).loc Cert.KernelIdeal.main_arg0)),
    Cert.KernelIdeal.ArrayValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.res_eq_cropMax, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
